-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x10000 : Shape := ⟨2, ![128, 10000]⟩
abbrev S_ : Shape := ⟨0, ![]⟩
abbrev S10000 : Shape := ⟨1, ![10000]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x10000 : S_.BroadcastsInDim S128x10000 (![] : Fin 0 → Fin S128x10000.rank)
  reducesTo_S128x10000_S_d0_1 : S128x10000.ReducesTo [0, 1] S_
  reducesTo_S128x10000_S10000_d0 : S128x10000.ReducesTo [0] S10000
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S8192x128 .f32) (main_arg1 : FVec F S128x10000 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x10000 .f32 := Host.absf main_arg1
  let main_cst_0 : FVec F S_ .f32 := constant S_ .f32 0x7F800000#32
  let main_v5 : FVec F S128x10000 .f32 := broadcastInDim S128x10000 ![] bcast_S_S128x10000 main_cst_0
  let main_v6 : IVec S128x10000 1 := cmpf .olt main_v4 main_v5
  let main_c_1 : IVec S_ 1 := constantI S_ 1 1#1
  let main_v7 : IVec S_ 1 := (fun x v => Host.reduce IntOp.andi x v reducesTo_S128x10000_S_d0_1 h_S_) main_v6 main_c_1
  let main_v8 : IVec S_ 1 := andi main_v3 main_v7
  let main_v9 : FVec F S128x10000 .f32 := mulf main_arg1 main_arg1
  let main_cst_2 : FVec F S_ .f32 := constant S_ .f32 0x00000000#32
  let main_v10 : FVec F S10000 .f32 := (fun x v => Host.reduceAdd x v reducesTo_S128x10000_S10000_d0 h_S_) main_v9 main_cst_2
  let main_cst_3 : FVec F S_ .f32 := constant S_ .f32 0x00000000#32
  let main_v11 : FVec F S10000 .f32 := broadcastInDim S10000 ![] bcast_S_S10000 main_cst_3
  let main_v12 : IVec S10000 1 := cmpf .ogt main_v10 main_v11
  let main_c_4 : IVec S_ 1 := constantI S_ 1 1#1
  let main_v13 : IVec S_ 1 := (fun x v => Host.reduce IntOp.andi x v reducesTo_S10000_S_d0 h_S_) main_v12 main_c_4
  let main_v14 : IVec S_ 1 := andi main_v8 main_v13
  main_v14
-- ==== Kernel.lean ====
abbrev S8192x128 : Shape := ⟨2, ![8192, 128]⟩
abbrev S128x10000 : Shape := ⟨2, ![128, 10000]⟩
abbrev S8192x10000 : Shape := ⟨2, ![8192, 10000]⟩
abbrev S128x128 : Shape := ⟨2, ![128, 128]⟩
abbrev S10000 : Shape := ⟨1, ![10000]⟩
abbrev S1x10000 : Shape := ⟨2, ![1, 10000]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S128x10000, .f32⟩
  | .hbm, ⟨2, _⟩ => ⟨S8192x10000, .f32⟩
  | .local _ .vmem, ⟨0, _⟩ => ⟨S128x128, .f32⟩
  | .local _ .vmem, ⟨1, _⟩ => ⟨S128x128, .f32⟩
  | .local _ .vmem, ⟨2, _⟩ => ⟨S128x10000, .f32⟩
  | .local _ .vmem, ⟨3, _⟩ => ⟨S128x10000, .f32⟩
  | .local _ .vmem, ⟨4, _⟩ => ⟨S128x10000, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x10000_S128x10000_0_0 : ∀ a, (![0, 0] : Fin 2 → Nat) a + S128x10000.size a ≤ S128x10000.size a
  h_S128x10000 : 0 < S128x10000.numel
  reduces_S128x10000_S10000 : S128x10000.Reduces [0] S10000
  shapeCasts_S10000_S1x10000 : S10000.ShapeCasts S1x10000
  broadcasts_S1x10000_S128x10000 : S1x10000.Broadcasts S128x10000
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  reduces_S128x128_S128 : S128x128.Reduces [1] S128
  shapeCasts_S128_S128x1 : S128.ShapeCasts S128x1
  broadcasts_S128x1_S128x10000 : S128x1.Broadcasts S128x10000
  reduces_S128x10000_S128 : S128x10000.Reduces [1] S128
  dot_S128x128_S128x10000_S128x10000_1_0_0_1_n_n_wf : DotDims.WF S128x128 S128x10000 S128x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S128x10000.size a
  hwx0_1 : ∀ i : grid0.Coords, EltTy.bits .f32 = 32 ∨ (Rect.block (s := S128x10000) S128x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10000.size a ≤ S8192x10000.size a
  hwx0_2 : ∀ i : grid0.Coords, EltTy.bits .f32 = 32 ∨ (Rect.block (s := S8192x10000) S128x10000.size (cc0_transform_2 i) (hinb0_2 i)).WholeWords (EltTy.packing .f32)

variable [Facts₀]

def dot_S128x128_S128x10000_S128x10000_1_0_0_1_n_n : DotDims S128x128 S128x10000 S128x10000 where
  lhsContracting := [1]
  rhsContracting := [0]
  lhsNonContracting := [0]
  rhsNonContracting := [1]
  lhsBatch := []
  rhsBatch := []
  wf := dot_S128x128_S128x10000_S128x10000_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x10000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x10000 : Shape := ⟨2, ![128, 10000]⟩
abbrev S_ : Shape := ⟨0, ![]⟩
abbrev S10000 : Shape := ⟨1, ![10000]⟩
abbrev S1x10000 : Shape := ⟨2, ![1, 10000]⟩
abbrev S8192x10000 : Shape := ⟨2, ![8192, 10000]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x10000, .f32⟩
  | .hbm, ⟨2, _⟩ => ⟨S128x10000, .f32⟩
  | .hbm, ⟨3, _⟩ => ⟨S_, .f32⟩
  | .hbm, ⟨4, _⟩ => ⟨S10000, .f32⟩
  | .hbm, ⟨5, _⟩ => ⟨S1x10000, .f32⟩
  | .hbm, ⟨6, _⟩ => ⟨S1x10000, .f32⟩
  | .hbm, ⟨7, _⟩ => ⟨S128x10000, .f32⟩
  | .hbm, ⟨8, _⟩ => ⟨S128x10000, .f32⟩
  | .hbm, ⟨9, _⟩ => ⟨S8192x10000, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x10000, .f32⟩
  | .hbm, ⟨19, _⟩ => ⟨S8192x10000, .f32⟩
  | .hbm, ⟨20, _⟩ => ⟨S_, .f32⟩
  | .hbm, ⟨21, _⟩ => ⟨S8192x10000, .f32⟩
  | .hbm, ⟨22, _⟩ => ⟨S8192x10000, .f32⟩
  | .hbm, ⟨23, _⟩ => ⟨S8192x10000, .f32⟩
  | .hbm, ⟨24, _⟩ => ⟨S_, .f32⟩
  | .hbm, ⟨25, _⟩ => ⟨S8192x10000, .f32⟩
  | .hbm, ⟨26, _⟩ => ⟨S8192x10000, .f32⟩
  | .hbm, ⟨27, _⟩ => ⟨S8192x10000, .f32⟩
  | .hbm, ⟨28, _⟩ => ⟨S8192x10000, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x10000, .f32⟩
  | .hbm, ⟨33, _⟩ => ⟨S8192x10000, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S128x10000_S10000_d0 : S128x10000.ReducesTo [0] S10000
  h_S_ : 0 < S_.numel
  bcast_S10000_S1x10000_1 : S10000.BroadcastsInDim S1x10000 (![1] : Fin 1 → Fin S1x10000.rank)
  bcast_S1x10000_S128x10000_0_1 : S1x10000.BroadcastsInDim S128x10000 (![0, 1] : Fin 2 → Fin S128x10000.rank)
  reducesTo_S8192x128_S8192_d1 : S8192x128.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x10000_0_1 : S8192x1.BroadcastsInDim S8192x10000 (![0, 1] : Fin 2 → Fin S8192x10000.rank)
  bcast_S_S8192x10000 : S_.BroadcastsInDim S8192x10000 (![] : Fin 0 → Fin S8192x10000.rank)
  reducesTo_S8192x10000_S8192_d1 : S8192x10000.ReducesTo [1] S8192
  dot_S8192x128_S128x10000_S8192x10000_1_0_0_1_n_n_wf : DotDims.WF S8192x128 S128x10000 S8192x10000 [1] [0] [0] [1] [] []

variable [Facts₀]

def dot_S8192x128_S128x10000_S8192x10000_1_0_0_1_n_n : DotDims S8192x128 S128x10000 S8192x10000 where
  lhsContracting := [1]
  rhsContracting := [0]
  lhsNonContracting := [0]
  rhsNonContracting := [1]
  lhsBatch := []
  rhsBatch := []
  wf := dot_S8192x128_S128x10000_S8192x10000_1_0_0_1_n_n_wf

class Facts : Prop extends Facts₀ where

variable [Facts]
-- ==== Proof.SphereSpec.lean ====
/-
  The mathematics of the angular-margin softmax loss with margin two, on the extended reals, and the one law that joins
  the two programs.

  For a table `W` of 128 rows and 10000 columns and a vector `xr` of 128 entries:
    * `colSq W c` is the sum of the squares of column `c`;
    * a NORMALISED table `Wn` divides every column by its length — written either as the product with the reciprocal
      square root of `colSq` (`wnMul`) or as the quotient by its square root (`wnDiv`);
    * `rowNorm xr` is the length of `xr`;
    * the cosine of the angle between `xr` and column `c` is `θ = (∑ k, xr k · Wn k c) / (rowNorm xr + ε)`, the margin
      score is `rowNorm xr · (2 θ θ − 1)` (`margin`), and the result is the score divided by the sum of the row's scores
      (`rowOut`).
  Everything after the normalised table is ONE function of it (`rowOut`), so two programs that agree on the table agree
  on the result. The two ways to normalise agree wherever the column's sum of squares is positive
  (`mul_rsqrt_eq_div_sqrt`): for a positive real `s` both are the product with `(√s)⁻¹`, and at `s = +∞` both are the
  product with `0`. At `s = 0` they differ (`0 · rsqrt 0 = 0 · ⊤ = 0` against `0 / 0`), which is why the columns are
  asked to be nonzero.
-/
import Idealize.ShloMosaic.PureOps.Ideal
import Idealize.ShloMosaic.Lib.ValueIdx

noncomputable section

namespace Cert.Sphere

open Idealize.ShloMosaic Idealize.ShloMosaic.ValueIdx

/-- The small constant added to a row's length before dividing, as its binary word. -/
abbrev eps : EReal := Ideal.ofBits .f32 0x33D6BF95#32
/-- The factor two of `2 θ θ − 1`, as its binary word. -/
abbrev two : EReal := Ideal.ofBits .f32 0x40000000#32
/-- The one of `2 θ θ − 1`, as its binary word. -/
abbrev one : EReal := Ideal.ofBits .f32 0x3F800000#32

/-- The sum of the squares of column `c`. -/
def colSq (W : Fin 128 → Fin 10000 → EReal) (c : Fin 10000) : EReal := ∑ d : Fin 128, W d c * W d c

/-- Every column scaled by the reciprocal square root of its sum of squares. -/
def wnMul (W : Fin 128 → Fin 10000 → EReal) (k : Fin 128) (c : Fin 10000) : EReal := W k c * Ideal.rsqrt (colSq W c)

/-- Every column divided by the square root of its sum of squares. -/
def wnDiv (W : Fin 128 → Fin 10000 → EReal) (k : Fin 128) (c : Fin 10000) : EReal := Ideal.div (W k c) (Ideal.sqrt (colSq W c))

/-- Scaling by the reciprocal square root of `s` is dividing by the square root of `s`, for every positive `s` of the
    extended reals, `+∞` included (there both are the product with `0`). -/
theorem mul_rsqrt_eq_div_sqrt (w s : EReal) (hs : 0 < s) : w * Ideal.rsqrt s = Ideal.div w (Ideal.sqrt s) := by
  induction s using EReal.rec with
  | bot => exact absurd hs (not_lt_bot)
  | top => simp [Ideal.div]
  | coe r =>
    have hr : 0 < r := by exact_mod_cast hs
    have hq : Real.sqrt r ≠ 0 := (Real.sqrt_pos.2 hr).ne'
    rw [Ideal.rsqrt_coe, Ideal.sqrt_coe, if_neg (not_lt.2 hr.le), if_neg hr.ne', if_neg (not_lt.2 hr.le), Ideal.div,
      if_neg (by exact_mod_cast hq), EReal.coe_inv]

/-- So the two normalised tables are one table when every column's sum of squares is positive. -/
theorem wnMul_eq_wnDiv (W : Fin 128 → Fin 10000 → EReal) (h : ∀ c, 0 < colSq W c) : wnMul W = wnDiv W :=
  funext fun k => funext fun c => mul_rsqrt_eq_div_sqrt (W k c) (colSq W c) (h c)

/-- The length of a vector of 128 entries. -/
def rowNorm (xr : Fin 128 → EReal) : EReal := Ideal.sqrt (∑ k : Fin 128, xr k * xr k)

/-- The cosine of the angle between `xr` and column `c` of a normalised table (with the small constant in the divisor). -/
def cosine (xr : Fin 128 → EReal) (Wn : Fin 128 → Fin 10000 → EReal) (c : Fin 10000) : EReal :=
  Ideal.div (∑ k : Fin 128, xr k * Wn k c) (rowNorm xr + eps)

/-- The margin score of column `c`: the row's length times `2 θ θ − 1`. -/
def margin (xr : Fin 128 → EReal) (Wn : Fin 128 → Fin 10000 → EReal) (c : Fin 10000) : EReal :=
  rowNorm xr * (two * cosine xr Wn c * cosine xr Wn c - one)

/-- The result at column `c`: the margin score divided by the sum of the row's margin scores. -/
def rowOut (xr : Fin 128 → EReal) (Wn : Fin 128 → Fin 10000 → EReal) (c : Fin 10000) : EReal :=
  Ideal.div (margin xr Wn c) (∑ c' : Fin 10000, margin xr Wn c')

/-- A [128, 10000] array as a table of rows and columns. -/
abbrev tbl (W : (⟨2, ![128, 10000]⟩ : Shape).Idx → EReal) : Fin 128 → Fin 10000 → EReal := fun k c => W (ix2 k c)

/-- THE RESULT ARRAY as one function of the two argument arrays, index by index: entry (b, c) is `rowOut` of row `b`
    of `x` against the table normalised by reciprocal square roots. -/
def G (x : (⟨2, ![8192, 128]⟩ : Shape).Idx → EReal) (W : (⟨2, ![128, 10000]⟩ : Shape).Idx → EReal) :
    (⟨2, ![8192, 10000]⟩ : Shape).Idx → EReal :=
  fun i => rowOut (fun k => x (ix2 (⟨(i 0).val, idx2_lt0 i⟩ : Fin 8192) k)) (wnMul (tbl W)) (⟨(i 1).val, idx2_lt1 i⟩ : Fin 10000)

theorem G_ix2 (x : (⟨2, ![8192, 128]⟩ : Shape).Idx → EReal) (W : (⟨2, ![128, 10000]⟩ : Shape).Idx → EReal)
    (b : Fin 8192) (c : Fin 10000) : G x W (ix2 b c) = rowOut (fun k => x (ix2 b k)) (wnMul (tbl W)) c := rfl

end Cert.Sphere

end
-- ==== Proof.LibKeepdimsColumn.lean ====
/-
  The keepdims COLUMN forms of two layout operations, read at an index given by coordinates: what a sum over the last
  axis with the reduced axis kept (a column of per-row values) needs when the column is built from a vector and then
  spread over the columns of a matrix.
    * `shapeCast_a_a1_apply`: an `[a]` vector cast to an `[a, 1]` column reads, at `(i, u)`, the vector at `i`.
    * `broadcastTo_a1_ab_apply`: an `[a, 1]` column broadcast to `[a, b]` reads, at `(i, c)`, the column at `(i, 0)`.
  Both are the library's general read-at-an-index lemmas with the coordinate arithmetic done once, for any extents.
-/
import Idealize.ShloMosaic.Lib.Pipeline.Value
import Idealize.ShloMosaic.Lib.ValueIdx

namespace Cert.Lib.KeepdimsColumn

open Idealize.ShloMosaic Idealize.ShloMosaic.ValueIdx

variable {α : Type}

/-- An `[a]` vector cast to an `[a, 1]` column reads, at `(i, u)`, the vector at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.Lib.KeepdimsColumn
-- ==== Proof.KernelValue.lean ====
/-
  The kernel body's stored value, stage by stage, at an index given by its coordinates.

  At one grid point the body loads the whole table `Wb` (128 × 10000) and a block `xb` of 128 rows of `x`, and stores one
  value: the column sums of squares of `Wb`; `Wb` times their reciprocal square roots; the block product of `xb` with
  that table (the operands' change of float format is the identity on the extended reals); the row lengths of `xb`;
  the cosines, the margin scores, their row sums, the quotient. The stages are named here (`kColSq` … `kOut`) and the
  printed payload IS the last of them, by unfolding. Read at (row, column) each stage is the matching function of
  SphereSpec of row `r` of `xb` and of the table: a lane sum is the sum over the reduced coordinate, the block product
  into a zero accumulator is the sum over the contracted coordinate, a vector cast to a column or a row and spread over
  the block reads its one entry of the row or column.
-/
import proofs.«101462_j44968307589188_1_alg».proof.Proof.Gen.KernelIdeal.Skeleton
import proofs.«101462_j44968307589188_1_alg».proof.Proof.SphereSpec
import proofs.«101462_j44968307589188_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.Sphere.Kern

open Cert.KernelIdeal Cert.KernelIdeal.Gen Idealize.ShloMosaic Idealize.ShloMosaic.ValueIdx Cert.Sphere
open Cert.Lib.KeepdimsColumn

variable (Wb : FVec Ideal S128x10000 .f32) (xb : FVec Ideal S128x128 .f32)

/-! ## The stages -/

/-- The column sums of squares of the table. -/
def kColSq : FVec Ideal S10000 .f32 :=
  multiReduction .add [0] S10000 (mulf Wb Wb) 0x00000000#32 reduces_S128x10000_S10000 (.inl rfl) rfl

/-- The table with every column scaled by the reciprocal square root of its sum of squares. -/
def kWn : FVec Ideal S128x10000 .f32 :=
  mulf Wb (broadcastTo S128x10000 (rsqrt (shapeCast S1x10000 (kColSq Wb) shapeCasts_S10000_S1x10000)) broadcasts_S1x10000_S128x10000)

/-- The block product of the rows with the scaled table. -/
def kScore : FVec Ideal S128x10000 .f32 :=
  matmul dot_S128x128_S128x10000_S128x10000_1_0_0_1_n_n none (truncf .bf16 xb bitsLt_bf16_f32) (truncf .bf16 (kWn Wb) bitsLt_bf16_f32)
    (constant S128x10000 .f32 0x00000000#32)

/-- The rows' lengths, one per row, kept as a column. -/
def kNorm : FVec Ideal S128x1 .f32 :=
  sqrt (shapeCast S128x1 (multiReduction .add [1] S128 (mulf xb xb) 0x00000000#32 reduces_S128x128_S128 (.inl rfl) rfl) shapeCasts_S128_S128x1)

/-- The cosines. -/
def kCos : FVec Ideal S128x10000 .f32 :=
  divf (kScore Wb xb) (broadcastTo S128x10000 (addf (kNorm xb) (broadcast S128x1 (Scalar.ofBits .f32 0x33D6BF95#32))) broadcasts_S128x1_S128x10000)

/-- The margin scores. -/
def kMargin : FVec Ideal S128x10000 .f32 :=
  mulf (broadcastTo S128x10000 (kNorm xb) broadcasts_S128x1_S128x10000)
    (subf (mulf (mulf (broadcast S128x10000 (Scalar.ofBits .f32 0x40000000#32)) (kCos Wb xb)) (kCos Wb xb))
      (broadcast S128x10000 (Scalar.ofBits .f32 0x3F800000#32)))

/-- The stored value: each margin score divided by its row's sum. -/
def kOut : FVec Ideal S128x10000 .f32 :=
  divf (kMargin Wb xb) (broadcastTo S128x10000 (shapeCast S128x1
    (multiReduction .add [1] S128 (kMargin Wb xb) 0x00000000#32 reduces_S128x10000_S128 (.inl rfl) rfl) shapeCasts_S128_S128x1)
    broadcasts_S128x1_S128x10000)

/-- The printed payload is the last stage. -/
theorem pay_eq : k0_pay1 (F := Ideal) Wb xb = kOut Wb xb := rfl

/-! ## The stages at an index -/

/-- The lane sum over the rows of `Wb · Wb`, at column `c`, is the column's sum of squares. -/
theorem kColSq_at (c : Fin 10000) : kColSq Wb (ix1 c) = colSq (tbl Wb) c := by
  unfold kColSq colSq
  refine (Ideal.multiReduction_add_single (mulf Wb Wb) 0x00000000#32 reduces_S128x10000_S10000 (.inl rfl) rfl (ix1 c)).trans ?_
  show ∑ d : Fin 128, (mulf Wb Wb) (reduces_S128x10000_S10000.lift (ix1 c) d) = ∑ d : Fin 128, Wb (ix2 d c) * Wb (ix2 d c)
  refine Finset.sum_congr rfl fun d _ => ?_
  have e : reduces_S128x10000_S10000.lift (ix1 c) d = ix2 d c :=
    funext fun a => Fin.ext (by match a with | ⟨0, _⟩ => rfl | ⟨1, _⟩ => rfl)
  rw [e]
  rfl

/-- The scaled table at (k, c). -/
theorem kWn_at (k : Fin 128) (c : Fin 10000) : kWn Wb (ix2 k c) = wnMul (tbl Wb) k c := by
  unfold kWn wnMul
  show Wb (ix2 k c) * _ = Wb (ix2 k c) * _
  refine congrArg (Wb (ix2 k c) * ·) ?_
  refine (broadcastTo_1b_ab_apply _ broadcasts_S1x10000_S128x10000 k c).trans ?_
  show Ideal.rsqrt (shapeCast S1x10000 (kColSq Wb) shapeCasts_S10000_S1x10000 (ix2 (0 : Fin 1) c)) = _
  refine congrArg Ideal.rsqrt ?_
  exact (shapeCast_a_1a_apply _ shapeCasts_S10000_S1x10000 (0 : Fin 1) c).trans (kColSq_at Wb c)

theorem lhs_0 (i : S128x10000.Idx) (q : dot_S128x128_S128x10000_S128x10000_1_0_0_1_n_n.contr.Idx) :
    (dot_S128x128_S128x10000_S128x10000_1_0_0_1_n_n.lhsIdx i q 0).val = (i 0).val := by
  unfold DotDims.lhsIdx
  rw [dif_neg (show ¬(0 : Fin S128x128.rank) ∈ dot_S128x128_S128x10000_S128x10000_1_0_0_1_n_n.lhsBatch by decide),
    dif_pos (show (0 : Fin S128x128.rank) ∈ dot_S128x128_S128x10000_S128x10000_1_0_0_1_n_n.lhsNonContracting by decide)]
  rfl

theorem rhs_1 (i : S128x10000.Idx) (q : dot_S128x128_S128x10000_S128x10000_1_0_0_1_n_n.contr.Idx) :
    (dot_S128x128_S128x10000_S128x10000_1_0_0_1_n_n.rhsIdx i q 1).val = (i 1).val := by
  unfold DotDims.rhsIdx
  rw [dif_neg (show ¬(1 : Fin S128x10000.rank) ∈ dot_S128x128_S128x10000_S128x10000_1_0_0_1_n_n.rhsBatch by decide),
    dif_pos (show (1 : Fin S128x10000.rank) ∈ dot_S128x128_S128x10000_S128x10000_1_0_0_1_n_n.rhsNonContracting by decide)]
  rfl

/-- The block product at (r, c): the sum over the 128 shared coordinates of the row's entry times the scaled table's. -/
theorem kScore_at (r : Fin 128) (c : Fin 10000) :
    kScore Wb xb (ix2 r c) = ∑ k : Fin 128, xb (ix2 r k) * wnMul (tbl Wb) k c := by
  unfold kScore
  refine (Ideal.matmul_constant_zero_apply dot_S128x128_S128x10000_S128x10000_1_0_0_1_n_n none
    (truncf .bf16 xb bitsLt_bf16_f32) (truncf .bf16 (kWn Wb) bitsLt_bf16_f32) (ix2 r c)).trans ?_
  rw [← Equiv.sum_comp (contrEquiv1 dot_S128x128_S128x10000_S128x10000_1_0_0_1_n_n 128 rfl rfl).symm]
  refine Finset.sum_congr rfl fun k _ => ?_
  have hk := contrEquiv1_symm_val dot_S128x128_S128x10000_S128x10000_1_0_0_1_n_n 128 rfl rfl k
  have el : dot_S128x128_S128x10000_S128x10000_1_0_0_1_n_n.lhsIdx (ix2 r c)
      ((contrEquiv1 dot_S128x128_S128x10000_S128x10000_1_0_0_1_n_n 128 rfl rfl).symm k) = ix2 r k :=
    funext fun a => Fin.ext (by
      match a with
      | ⟨0, _⟩ => exact lhs_0 _ _
      | ⟨1, _⟩ => exact (dot_S128x128_S128x10000_S128x10000_1_0_0_1_n_n.lhsIdx_val_of_single rfl _ _).trans hk)
  have er : dot_S128x128_S128x10000_S128x10000_1_0_0_1_n_n.rhsIdx (ix2 r c)
      ((contrEquiv1 dot_S128x128_S128x10000_S128x10000_1_0_0_1_n_n 128 rfl rfl).symm k) = ix2 k c :=
    funext fun a => Fin.ext (by
      match a with
      | ⟨0, _⟩ => exact (dot_S128x128_S128x10000_S128x10000_1_0_0_1_n_n.rhsIdx_val_of_single rfl _ _).trans hk
      | ⟨1, _⟩ => exact rhs_1 _ _)
  rw [el, er]
  show xb (ix2 r k) * kWn Wb (ix2 k c) = _
  rw [kWn_at]

/-- The length of row `r` of the block. -/
theorem kNorm_at (r : Fin 128) (u : Fin 1) : kNorm xb (ix2 r u) = rowNorm (fun k => xb (ix2 r k)) := by
  unfold kNorm rowNorm
  show Ideal.sqrt (shapeCast S128x1 _ shapeCasts_S128_S128x1 (ix2 r u)) = _
  refine congrArg Ideal.sqrt ?_
  refine (shapeCast_a_a1_apply _ shapeCasts_S128_S128x1 r u).trans ?_
  refine (Ideal.multiReduction_add_single (mulf xb xb) 0x00000000#32 reduces_S128x128_S128 (.inl rfl) rfl (ix1 r)).trans ?_
  show ∑ k : Fin 128, (mulf xb xb) (reduces_S128x128_S128.lift (ix1 r) k) = ∑ k : Fin 128, xb (ix2 r k) * xb (ix2 r k)
  refine Finset.sum_congr rfl fun k _ => ?_
  have e : reduces_S128x128_S128.lift (ix1 r) k = ix2 r k :=
    funext fun a => Fin.ext (by match a with | ⟨0, _⟩ => rfl | ⟨1, _⟩ => rfl)
  rw [e]
  rfl

/-- The cosine of row `r` against column `c`. -/
theorem kCos_at (r : Fin 128) (c : Fin 10000) :
    kCos Wb xb (ix2 r c) = cosine (fun k => xb (ix2 r k)) (wnMul (tbl Wb)) c := by
  unfold kCos cosine
  show Ideal.div (kScore Wb xb (ix2 r c)) (broadcastTo S128x10000 _ broadcasts_S128x1_S128x10000 (ix2 r c)) = _
  refine congrArg₂ Ideal.div (kScore_at Wb xb r c) ?_
  refine (broadcastTo_a1_ab_apply _ broadcasts_S128x1_S128x10000 r c).trans ?_
  show kNorm xb (ix2 r (0 : Fin 1)) + Ideal.ofBits .f32 0x33D6BF95#32 = _
  rw [kNorm_at]

/-- The margin score of row `r` at column `c`. -/
theorem kMargin_at (r : Fin 128) (c : Fin 10000) :
    kMargin Wb xb (ix2 r c) = margin (fun k => xb (ix2 r k)) (wnMul (tbl Wb)) c := by
  unfold kMargin margin
  show broadcastTo S128x10000 (kNorm xb) broadcasts_S128x1_S128x10000 (ix2 r c)
      * (Ideal.ofBits .f32 0x40000000#32 * kCos Wb xb (ix2 r c) * kCos Wb xb (ix2 r c) - Ideal.ofBits .f32 0x3F800000#32) = _
  rw [kCos_at, broadcastTo_a1_ab_apply _ broadcasts_S128x1_S128x10000 r c, kNorm_at]

/-- The stored value at (r, c). -/
theorem kOut_at (r : Fin 128) (c : Fin 10000) :
    kOut Wb xb (ix2 r c) = rowOut (fun k => xb (ix2 r k)) (wnMul (tbl Wb)) c := by
  unfold kOut rowOut
  show Ideal.div (kMargin Wb xb (ix2 r c)) (broadcastTo S128x10000 _ broadcasts_S128x1_S128x10000 (ix2 r c)) = _
  refine congrArg₂ Ideal.div (kMargin_at Wb xb r c) ?_
  refine (broadcastTo_a1_ab_apply _ broadcasts_S128x1_S128x10000 r c).trans ?_
  refine (shapeCast_a_a1_apply _ shapeCasts_S128_S128x1 r (0 : Fin 1)).trans ?_
  refine (Ideal.multiReduction_add_single (kMargin Wb xb) 0x00000000#32 reduces_S128x10000_S128 (.inl rfl) rfl (ix1 r)).trans ?_
  show ∑ c' : Fin 10000, kMargin Wb xb (reduces_S128x10000_S128.lift (ix1 r) c') = _
  refine Finset.sum_congr rfl fun c' _ => ?_
  have e : reduces_S128x10000_S128.lift (ix1 r) c' = ix2 r c' :=
    funext fun a => Fin.ext (by match a with | ⟨0, _⟩ => rfl | ⟨1, _⟩ => rfl)
  rw [e, kMargin_at]

/-- THE PAYLOAD AT (r, c): `rowOut` of row `r` of the block against the table scaled by reciprocal square roots. -/
theorem pay_at (r : Fin 128) (c : Fin 10000) :
    k0_pay1 (F := Ideal) Wb xb (ix2 r c) = rowOut (fun k => xb (ix2 r k)) (wnMul (tbl Wb)) c := by
  rw [pay_eq]
  exact kOut_at Wb xb r c

end Cert.Sphere.Kern

end
-- ==== Proof.KernelArray.lean ====
/-
  From the blocks the grid points write to the whole result array.

  The grid has 64 points. Point `t` is handed rows `128 t … 128 t + 127` of `x` (window 0: block (t, 0) of blocks of
  128 × 128), the whole table `W` (window 1: always block (0, 0)), and writes rows `128 t … 128 t + 127` of the result
  (window 2: block (t, 0) of blocks of 128 × 10000). A block's array coordinate is block index × block size + the
  coordinate inside the block. Entry (r, c) of what point `t` writes is `rowOut` of row `r` of its `x` block against the
  scaled table (KernelValue), that is entry (128 t + r, c) of `G x W`: the result's rows depend on their own row of `x`
  only. Row `R` of the result lies in the block of point `R / 128`, so the blocks cover the array and it ends at `G x W`.
-/
import proofs.«101462_j44968307589188_1_alg».proof.Proof.Gen.KernelIdeal.Value
import proofs.«101462_j44968307589188_1_alg».proof.Proof.KernelValue

set_option maxRecDepth 16384

noncomputable section

namespace Cert.Sphere.Arr

open Cert.KernelIdeal Cert.KernelIdeal.Gen Idealize.ShloMosaic Idealize.ShloMosaic.TcCoe Idealize.SL.Sem
open Idealize.ShloMosaic.ValueIdx Cert.Sphere
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The printed index maps, decided over the 64 grid points: the rows of `x` and of the result move with the point, the
    table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of point `t`'s block of `x` is entry (128 t + r, k) of `x`. -/
theorem xblk_read (c : Dev nD) (t : Fin cfg0.N) (r k : Fin 128) (hb : 128 * t.val + r.val < 8192) :
    iblk m c 0 t (ix2 r k) = V m c main_arg0 (ix2 (⟨128 * t.val + r.val, hb⟩ : Fin 8192) k) := by
  show V m c main_arg0 (((cfg0.win 0).blk t).view.emb (ix2 r k)) = V m c main_arg0 _
  refine congrArg _ (funext fun a => Fin.ext ?_)
  obtain ⟨e0, e1, -⟩ := idx_facts t
  match a with
  | ⟨0, _⟩ => show win0_0.index t (0 : Fin 2) * 128 + 1 * r.val = 128 * t.val + r.val; omega
  | ⟨1, _⟩ => show win0_0.index t (1 : Fin 2) * 128 + 1 * k.val = k.val; omega

/-- Point `t`'s block of the table is the table. -/
theorem wblk_read (c : Dev nD) (t : Fin cfg0.N) (k : Fin 128) (cc : Fin 10000) :
    iblk m c 1 t (ix2 k cc) = V m c main_arg1 (ix2 k cc) := by
  show V m c main_arg1 (((cfg0.win 1).blk t).view.emb (ix2 k cc)) = V m c main_arg1 _
  refine congrArg _ (funext fun a => Fin.ext ?_)
  obtain ⟨-, -, e2, e3, -⟩ := idx_facts t
  match a with
  | ⟨0, _⟩ => show win0_1.index t (0 : Fin 2) * 128 + 1 * k.val = k.val; omega
  | ⟨1, _⟩ => show win0_1.index t (1 : Fin 2) * 10000 + 1 * cc.val = cc.val; omega

/-- Entry (r, c) of the value point `t` stores is entry (128 t + r, c) of `G x W`. -/
theorem stored_at (c : Dev nD) (t : Fin cfg0.N) (r : Fin 128) (cc : Fin 10000) (hb : 128 * t.val + r.val < 8192) :
    k0_pay1 (F := Ideal) (iblk m c 1 t) (iblk m c 0 t) (ix2 r cc)
      = G (V m c main_arg0) (V m c main_arg1) (ix2 (⟨128 * t.val + r.val, hb⟩ : Fin 8192) cc) := by
  rw [G_ix2]
  refine (Kern.pay_at (iblk m c 1 t) (iblk m c 0 t) r cc).trans ?_
  have hx : (fun k => iblk m c 0 t (ix2 r k)) = fun k => V m c main_arg0 (ix2 (⟨128 * t.val + r.val, hb⟩ : Fin 8192) k) :=
    funext fun k => xblk_read m c t r k hb
  have hW : tbl (iblk m c 1 t) = tbl (V m c main_arg1) :=
    funext fun k => funext fun c' => wblk_read m c t k c'
  rw [hx, hW]

/-- WHAT POINT `t` WRITES BACK is block `t` of `G x W`. -/
theorem flushed_eq (c : Dev nD) (t : Fin cfg0.N) :
    (dats m 0 c).flushed 2 t = ((cfg0.win 2).blk t).view.read (Elt Ideal) (G (V m c main_arg0) (V m c main_arg1)) := by
  rw [Cert.KernelIdeal.Value.flushed2]
  unfold out0_2
  rw [View.canon_unit_zero off_zero]
  simp only [View.ld_unit_zero (S := S128x10000) off_zero, View.ld_unit_zero (S := S128x128) off_zero]
  funext j
  obtain ⟨r, cc, rfl⟩ : ∃ (r : Fin 128) (cc : Fin 10000), j = ix2 r cc := ⟨j 0, j 1, eq_ix2 (n0 := 128) (n1 := 10000) j⟩
  have ht : t.val < 64 := t.isLt
  have hb : 128 * t.val + r.val < 8192 := by have := r.isLt; omega
  show k0_pay1 (F := Ideal) (iblk m c 1 t) (iblk m c 0 t) (ix2 r cc)
    = G (V m c main_arg0) (V m c main_arg1) (((cfg0.win 2).blk t).view.emb (ix2 r cc))
  have eo : ((cfg0.win 2).blk t).view.emb (ix2 r cc) = ix2 (⟨128 * t.val + r.val, hb⟩ : Fin 8192) cc :=
    funext fun a => Fin.ext (by
      obtain ⟨-, -, -, -, e4, e5⟩ := idx_facts t
      match a with
      | ⟨0, _⟩ => show win0_2.index t (0 : Fin 2) * 128 + 1 * r.val = 128 * t.val + r.val; omega
      | ⟨1, _⟩ => show win0_2.index t (1 : Fin 2) * 10000 + 1 * cc.val = cc.val; omega)
  rw [eo]
  exact stored_at m c t r cc hb

/-- An index of the result is in point `t`'s block iff each coordinate is in the block's range on its axis. -/
theorem mem_blk (t : Fin cfg0.N) (i : S8192x10000.Idx) :
    i ∈ ((cfg0.win 2).blk t).view.set ↔ ∀ a : Fin 2, win0_2.index t a * S128x10000.size a ≤ (i a).val
      ∧ (i a).val < win0_2.index t a * S128x10000.size a + S128x10000.size a := by
  show i ∈ ((View.whole main_v0).slice (win0_2.rect t)).set ↔ _
  rw [View.set_slice_whole, Rect.mem_set_unit]
  exact Iff.rfl

/-- THE COVER: row `R` of the result is in the block of point `R / 128`. -/
theorem cover (i : S8192x10000.Idx) : ∃ t : Fin cfg0.N, (cfg0.win 2).flush t = true ∧ i ∈ ((cfg0.win 2).blk t).view.set := by
  have hi0 : (i 0).val < 8192 := (i 0).isLt
  have hi1 : (i 1).val < 10000 := (i 1).isLt
  obtain ⟨t, ht⟩ : ∃ t : Fin cfg0.N, t.val = (i 0).val / 128 :=
    ⟨⟨(i 0).val / 128, by show (i 0).val / 128 < 64; omega⟩, rfl⟩
  refine ⟨t, flush0_2 t, ?_⟩
  rw [mem_blk]
  obtain ⟨-, -, -, -, e4, e5⟩ := idx_facts t
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 10000 ≤ (i 1).val ∧ (i 1).val < win0_2.index t (1 : Fin 2) * 10000 + 10000
    omega

/-- THE RESULT ARRAY after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Sphere.Arr

end
-- ==== Proof.RefValue.lean ====
/-
  The reference's result, stage by stage, at an index given by its coordinates.

  The reference computes, on whole arrays: the column sums of squares of `W`; `W` divided by their square roots; the
  product of `x` with that table; the row lengths of `x`; the cosines, the margin scores, their row sums and the
  quotient. Each stage read at (row, column) is the matching function of SphereSpec — `colSq`, `wnDiv`, `rowNorm`,
  `cosine`, `margin`, `rowOut` — of row `b` of `x` and of the table `W`: a host sum is its zero initial value plus the
  sum over the reduced coordinate, the host product is the sum over the contracted coordinate, and a keepdims broadcast
  reads the column's one entry of the row. Where every column's sum of squares is positive the reference's way of
  normalising the table (a quotient by the square root) is the kernel's (a product with the reciprocal square root),
  so the reference's result is `G x W`.
-/
import proofs.«101462_j44968307589188_1_alg».proof.Proof.Gen.ReferenceIdeal.Read
import proofs.«101462_j44968307589188_1_alg».proof.Proof.SphereSpec

noncomputable section

namespace Cert.Sphere.Ref

open Cert.ReferenceIdeal Cert.ReferenceIdeal.Read Idealize.ShloMosaic Idealize.ShloMosaic.ValueIdx Cert.Sphere

variable (x : (⟨S8192x128, .f32⟩ : BufTy).Contents (Elt Ideal)) (W : (⟨S128x10000, .f32⟩ : BufTy).Contents (Elt Ideal))

/-- The host's sum over the rows of `W · W`, at column `c`, is the column's sum of squares. -/
theorem colSq_at (c : Fin 10000) : val_main_v1 (F := Ideal) W (ix1 c) = colSq (tbl W) c := by
  rw [val_main_v1_apply]
  show Ideal.ofBits .f32 0x00000000#32 + _ = _
  rw [Ideal.ofBits_zero_f32, zero_add]
  unfold colSq
  refine Finset.sum_congr rfl fun k _ => ?_
  have e : idx_main_v1 (ix1 c) k = ix2 k c :=
    funext fun a => Fin.ext (by match a with | ⟨0, _⟩ => rfl | ⟨1, _⟩ => rfl)
  rw [val_main_v0_apply, e]
  rfl

/-- The reference's normalised table: `W` divided by the square root of its column's sum of squares. -/
theorem wnDiv_at (k : Fin 128) (c : Fin 10000) : val_main_v5 (F := Ideal) W (ix2 k c) = wnDiv (tbl W) k c := by
  have e : idx_main_v2 (idx_main_v4 (ix2 k c)) = ix1 c :=
    funext fun a => Fin.ext (by match a with | ⟨0, _⟩ => rfl)
  rw [val_main_v5_apply, val_main_v4_apply, val_main_v3_apply, val_main_v2_apply, e, colSq_at]
  rfl

/-- The length of row `b` of `x`, kept as a column of one entry per row. -/
theorem rowNorm_at (b : Fin 8192) (u : Fin 1) : val_main_v10 (F := Ideal) x (ix2 b u) = rowNorm (fun k => x (ix2 b k)) := by
  rw [val_main_v10_apply, val_main_v9_apply, val_main_v8_apply]
  show Ideal.sqrt (Ideal.ofBits .f32 0x00000000#32 + _) = _
  rw [Ideal.ofBits_zero_f32, zero_add]
  unfold rowNorm
  refine congrArg Ideal.sqrt (Finset.sum_congr rfl fun k _ => ?_)
  have e : idx_main_v8 (idx_main_v9 (ix2 b u)) k = ix2 b k :=
    funext fun a => Fin.ext (by match a with | ⟨0, _⟩ => rfl | ⟨1, _⟩ => rfl)
  rw [val_main_v7_apply, e]
  rfl

/-- The host product of `x` with the normalised table at (b, c): the sum over the 128 shared coordinates. -/
theorem score_at (b : Fin 8192) (c : Fin 10000) :
    val_main_v6 (F := Ideal) x W (ix2 b c) = ∑ k : Fin 128, x (ix2 b k) * wnDiv (tbl W) k c := by
  rw [val_main_v6_apply]
  refine Finset.sum_congr rfl fun k _ => ?_
  have el : lidx_main_v6 (ix2 b c) k = ix2 b k :=
    funext fun a => Fin.ext (by match a with | ⟨0, _⟩ => rfl | ⟨1, _⟩ => rfl)
  have er : ridx_main_v6 (ix2 b c) k = ix2 k c :=
    funext fun a => Fin.ext (by match a with | ⟨0, _⟩ => rfl | ⟨1, _⟩ => rfl)
  rw [el, er, wnDiv_at]

/-- The cosine of row `b` against column `c`. -/
theorem cosine_at (b : Fin 8192) (c : Fin 10000) :
    val_main_v14 (F := Ideal) x W (ix2 b c) = cosine (fun k => x (ix2 b k)) (wnDiv (tbl W)) c := by
  have e : idx_main_v13 (ix2 b c) = ix2 b (0 : Fin 1) :=
    funext fun a => Fin.ext (by match a with | ⟨0, _⟩ => rfl | ⟨1, _⟩ => rfl)
  rw [val_main_v14_apply, score_at, val_main_v13_apply, val_main_v12_apply, val_main_v11_apply, e, rowNorm_at]
  rfl

/-- The margin score of row `b` at column `c`. -/
theorem margin_at (b : Fin 8192) (c : Fin 10000) :
    val_main_v21 (F := Ideal) x W (ix2 b c) = margin (fun k => x (ix2 b k)) (wnDiv (tbl W)) c := by
  have e : idx_main_v20 (ix2 b c) = ix2 b (0 : Fin 1) :=
    funext fun a => Fin.ext (by match a with | ⟨0, _⟩ => rfl | ⟨1, _⟩ => rfl)
  rw [val_main_v21_apply, val_main_v20_apply, val_main_v19_apply, val_main_v17_apply, val_main_v16_apply,
    val_main_v15_apply, val_main_v18_apply, cosine_at, e, rowNorm_at]
  rfl

/-- The result at (b, c): the margin score divided by the row's sum of margin scores. -/
theorem rowOut_at (b : Fin 8192) (c : Fin 10000) :
    val_main_v25 (F := Ideal) x W (ix2 b c) = rowOut (fun k => x (ix2 b k)) (wnDiv (tbl W)) c := by
  rw [val_main_v25_apply, val_main_v24_apply, val_main_v23_apply, val_main_v22_apply, margin_at]
  show Ideal.div _ (Ideal.ofBits .f32 0x00000000#32 + _) = _
  rw [Ideal.ofBits_zero_f32, zero_add]
  unfold rowOut
  refine congrArg (Ideal.div _) (Finset.sum_congr rfl fun k _ => ?_)
  have e : idx_main_v22 (idx_main_v23 (idx_main_v24 (ix2 b c))) k = ix2 b k :=
    funext fun a => Fin.ext (by match a with | ⟨0, _⟩ => rfl | ⟨1, _⟩ => rfl)
  rw [e, margin_at]

/-- THE REFERENCE'S RESULT IS `G` wherever every column of `W` has a positive sum of squares. -/
theorem val_eq_G (h : ∀ c, 0 < colSq (tbl W) c) : val_main_v25 (F := Ideal) x W = G x W := by
  funext i
  obtain ⟨b, c, rfl⟩ : ∃ (b : Fin 8192) (c : Fin 10000), i = ix2 b c := ⟨i 0, i 1, eq_ix2 i⟩
  rw [rowOut_at, G_ix2, wnMul_eq_wnDiv _ h]

end Cert.Sphere.Ref

end
-- ==== Proof.PreDomain.lean ====
/-
  What the precondition says about the table: every column of `W` has a positive sum of squares.

  The precondition is the conjunction of three tests, each an `and` over all entries: `|x| < ∞`, `|W| < ∞`, and
  `∑_d W[d, c]² > 0` for every column `c`. The last one is what the value proof uses: the host's sum over the rows of
  `W · W` at column `c` is its zero initial value plus the sum over the 128 rows, so the test at `c` says
  `0 < colSq W c`. (Finiteness is not needed: the law that joins the two programs holds for every positive sum of
  squares, `+∞` included.)
-/
import proofs.«101462_j44968307589188_1_alg».proof.Pre_finite_inputs
import proofs.«101462_j44968307589188_1_alg».proof.Proof.Gen.Pre_finite_inputs
import proofs.«101462_j44968307589188_1_alg».proof.Proof.SphereSpec
import Idealize.ShloMosaic.Lib.ReduceAll
import Idealize.ShloMosaic.Lib.Affine
import Idealize.ShloMosaic.Lib.ValueIdx
import Idealize.ShloMosaic.PureOps.Ideal.Laws

noncomputable section

namespace Cert.Sphere.Pre

open Cert.Pre_finite_inputs Cert.Pre_finite_inputs.Facts Idealize.ShloMosaic Idealize.ShloMosaic.ValueIdx Cert.Sphere

variable [Cert.Pre_finite_inputs.Facts]

/-- The rank-0 shape has one index. -/
instance : Subsingleton S_.Idx := ⟨fun _ _ => funext fun d => d.elim0⟩

theorem ofBool_eq_one {b : Bool} : BitVec.ofBool b = 1#1 ↔ b = true := by cases b <;> decide

/-- The host's sum over the rows of `W · W`, at column `c`, is the column's sum of squares. -/
theorem hostColSq (Wt : FVec Ideal S128x10000 .f32) (c : Fin 10000) :
    Host.reduceAdd (F := Ideal) (mulf Wt Wt) (constant (F := Ideal) S_ .f32 0x00000000#32) reducesTo_S128x10000_S10000_d0 h_S_ (ix1 c)
      = colSq (tbl Wt) c := by
  simp only [Host.reduceAdd, Ideal.hostReduceAdd_def]
  rw [Ideal.hostReduceAdd_single reducesTo_S128x10000_S10000_d0 (by decide)]
  show Ideal.ofBits .f32 0x00000000#32 + _ = _
  rw [Ideal.ofBits_zero_f32, zero_add]
  unfold colSq
  generalize hR : (by decide : S128x10000.Reduces [0] S10000) = R
  show ∑ d : Fin 128, (mulf Wt Wt) (R.lift (ix1 c) d) = ∑ d : Fin 128, Wt (ix2 d c) * Wt (ix2 d c)
  refine Finset.sum_congr rfl fun d _ => ?_
  have e : R.lift (ix1 c) d = ix2 d c :=
    funext fun a => Fin.ext (by match a with | ⟨0, _⟩ => rfl | ⟨1, _⟩ => rfl)
  rw [e]
  rfl

/-- THE PRECONDITION'S THIRD TEST, decoded: every column's sum of squares is positive. -/
theorem colSq_pos (X : FVec Ideal S8192x128 .f32) (Wt : FVec Ideal S128x10000 .f32)
    (h : fn (F := Ideal) X Wt = fun _ => 1#1) (c : Fin 10000) : 0 < colSq (tbl Wt) c := by
  have e := congrFun h ix0
  dsimp only [fn] at e
  have e13 := (IntOp.andi_eq_one.mp e).2
  have ec := Host.reduce_andi_all _ _ _ _ ix0 e13 (ix1 c)
  have hc : Ideal.cmp .ogt (Host.reduceAdd (F := Ideal) (mulf Wt Wt) (constant (F := Ideal) S_ .f32 0x00000000#32) reducesTo_S128x10000_S10000_d0 h_S_ (ix1 c))
      (Ideal.ofBits .f32 0x00000000#32) = 1#1 := ec
  rw [hostColSq, Ideal.ofBits_zero_f32] at hc
  unfold Ideal.cmp at hc
  rw [ofBool_eq_one] at hc
  exact of_decide_eq_true hc

end Cert.Sphere.Pre

end
-- ==== Proof.lean ====
/-
  The angular-margin softmax loss with margin two: a Pallas kernel against its jnp reference, equal on the extended reals.

  Both programs take `x` (8192 × 128) and `W` (128 × 10000) and compute, for every row `b` and column `c`,
      out[b, c] = S_m[b, c] / ∑_c' S_m[b, c'],   S_m[b, c] = ‖x_b‖ · (2 θ θ − 1),   θ = (∑_k x[b, k] · Wn[k, c]) / (‖x_b‖ + ε),
  with `Wn` the table `W` with every column divided by its length. They differ in one place: the kernel scales a column
  by the reciprocal square root of its sum of squares, the reference divides it by the square root. For a positive sum
  of squares `s` these agree (`w · (√s)⁻¹`; at `s = +∞` both are `w · 0`); on a column of zeros they do not
  (`0 · rsqrt 0 = 0 · ⊤ = 0` against `0 / √0 = 0 / 0`), and the difference reaches the result. So the precondition asks,
  beside finite inputs, that every column of `W` has a positive sum of squares — outside that the reference itself
  divides zero by zero.

  Under it the two results are ONE function `G x W` of the argument arrays (SphereSpec):
    * the kernel: the grid's 64 points each write 128 rows of the result; what a point stores is read stage by stage at
      an index (KernelValue), a point's rows depend on its own rows of `x` and the whole table, and the 64 blocks cover
      the array (KernelArray);
    * the reference: its host operations read stage by stage at an index (RefValue), with the quotient by the square
      root turned into the product with the reciprocal square root by the positivity of the column sums, which the
      precondition's third test states (PreDomain).
  The three frames are the programs' runs with the result dropped; the idealized kernel is the kernel's own text read on
  the extended reals, so there is nothing to preserve.
-/
import proofs.«101462_j44968307589188_1_alg».proof.Defs
import proofs.«101462_j44968307589188_1_alg».proof.Proof.Gen.Kernel
import proofs.«101462_j44968307589188_1_alg».proof.Proof.Gen.Kernel.Skeleton
import proofs.«101462_j44968307589188_1_alg».proof.Proof.Gen.Kernel.Launch
import proofs.«101462_j44968307589188_1_alg».proof.Proof.Gen.Kernel.Points
import proofs.«101462_j44968307589188_1_alg».proof.Proof.Gen.Kernel.Frame
import proofs.«101462_j44968307589188_1_alg».proof.Proof.Gen.KernelIdeal
import proofs.«101462_j44968307589188_1_alg».proof.Proof.Gen.KernelIdeal.Skeleton
import proofs.«101462_j44968307589188_1_alg».proof.Proof.Gen.KernelIdeal.Launch
import proofs.«101462_j44968307589188_1_alg».proof.Proof.Gen.KernelIdeal.Points
import proofs.«101462_j44968307589188_1_alg».proof.Proof.Gen.KernelIdeal.Frame
import proofs.«101462_j44968307589188_1_alg».proof.Proof.Gen.KernelIdeal.Value
import proofs.«101462_j44968307589188_1_alg».proof.Proof.Gen.ReferenceIdeal
import proofs.«101462_j44968307589188_1_alg».proof.Proof.Gen.ReferenceIdeal.Run
import proofs.«101462_j44968307589188_1_alg».proof.Proof.Gen.ReferenceIdeal.Read
import proofs.«101462_j44968307589188_1_alg».proof.Proof.Gen.Pre_finite_inputs
import proofs.«101462_j44968307589188_1_alg».proof.Proof.SphereSpec
import proofs.«101462_j44968307589188_1_alg».proof.Proof.KernelArray
import proofs.«101462_j44968307589188_1_alg».proof.Proof.RefValue
import proofs.«101462_j44968307589188_1_alg».proof.Proof.PreDomain
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `W`, with every column of `W` of positive sum of squares, both programs end with
    the result array at `G x W`: the kernel block by block, the reference stage by stage, its quotient by the columns'
    lengths being the kernel's product with their reciprocals. -/
theorem algebraic : Cert.algebraic_KernelIdeal_ReferenceIdeal := by
  intro m ρ m' ρ' hpre hagree
  refine ⟨fun c => Cert.Sphere.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.Sphere.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2]
  exact Cert.Sphere.Ref.val_eq_G _ _ (Cert.Sphere.Pre.colSq_pos _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
